-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S3200000 32) (main_arg2 : IVec S3200000 32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S10000x256 : Shape := ⟨2, ![10000, 256]⟩
abbrev S10000x1 : Shape := ⟨2, ![10000, 1]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 43
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x64, .f32⟩
  | .hbm, ⟨4, _⟩ => ⟨S64, .f32⟩
  | .hbm, ⟨5, _⟩ => ⟨S100000, .i32⟩
  | .hbm, ⟨6, _⟩ => ⟨S3300000, .i32⟩
  | .hbm, ⟨7, _⟩ => ⟨S3300000, .i32⟩
  | .hbm, ⟨8, _⟩ => ⟨S_, .f32⟩
  | .hbm, ⟨9, _⟩ => ⟨S3300000, .f32⟩
  | .hbm, ⟨10, _⟩ => ⟨S_, .f32⟩
  | .hbm, ⟨11, _⟩ => ⟨S100000, .f32⟩
  | .hbm, ⟨12, _⟩ => ⟨S3300000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000x64, .f32⟩
  | .hbm, ⟨37, _⟩ => ⟨S_, .f32⟩
  | .hbm, ⟨38, _⟩ => ⟨S100000x64, .f32⟩
  | .hbm, ⟨39, _⟩ => ⟨S3300000x1, .i32⟩
  | .hbm, ⟨40, _⟩ => ⟨S100000x64, .f32⟩
  | .hbm, ⟨41, _⟩ => ⟨S100000x1, .f32⟩
  | .hbm, ⟨42, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S10000x1, .f32⟩
  | .local _ .vmem, ⟨3, _⟩ => ⟨S10000x1, .f32⟩
  | .local _ .vmem, ⟨4, _⟩ => ⟨S256x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S10000x256_S10000x256_0_0 : ∀ a, (![0, 0] : Fin 2 → Nat) a + S10000x256.size a ≤ S10000x256.size a
  h_S10000x256 : 0 < S10000x256.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  broadcasts_S10000x1_S10000x64 : S10000x1.Broadcasts S10000x64
  scatter_S100000_S3300000x1_S3300000_n_0_0_1_wf : ScatterDims.WF S100000 S3300000x1 S3300000 [] [0] [0] 1
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S256x64, .f32⟩
  | .hbm, ⟨4, _⟩ => ⟨S64, .f32⟩
  | .hbm, ⟨5, _⟩ => ⟨S100000, .i32⟩
  | .hbm, ⟨6, _⟩ => ⟨S3300000, .i32⟩
  | .hbm, ⟨7, _⟩ => ⟨S3300000, .i32⟩
  | .hbm, ⟨8, _⟩ => ⟨S_, .f32⟩
  | .hbm, ⟨9, _⟩ => ⟨S3300000, .f32⟩
  | .hbm, ⟨10, _⟩ => ⟨S_, .f32⟩
  | .hbm, ⟨11, _⟩ => ⟨S100000, .f32⟩
  | .hbm, ⟨12, _⟩ => ⟨S3300000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x64, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000x64, .f32⟩
  | .hbm, ⟨39, _⟩ => ⟨S_, .f32⟩
  | .hbm, ⟨40, _⟩ => ⟨S100000x64, .f32⟩
  | .hbm, ⟨41, _⟩ => ⟨S3300000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  One graph-convolution layer with symmetric degree normalisation, cut at the two places where the
  two programs differ, as whole-array functions over the extended reals.

  * `scaledProduct x s w`: row r of the features x, every entry multiplied by that row's factor
    s r, contracted with column j of the weights w — entry (r, j) is the sum over the 256 input
    features k of (x[r,k] · s[r]) · w[k,j].
  * `scaledShift a s b`: entry (r, j) is a[r,j] · s[r] + b[j].

  Both are stated through a function of the two coordinates, so that an index built from
  coordinates reads by `rfl`.
-/
import Idealize.ShloMosaic.Lib.ValueIdx
import Idealize.ShloMosaic.PureOps.Ideal

noncomputable section

namespace Cert.GraphConv

open Idealize.ShloMosaic Idealize.ShloMosaic.ValueIdx

/-- Entry (r, j) of the scaled product: the sum over the input features k of (x[r,k] · s[r]) · w[k,j]. -/
def scaledRowDot (x : FVec Ideal ⟨2, ![100000, 256]⟩ .f32) (s : FVec Ideal ⟨2, ![100000, 1]⟩ .f32)
    (w : FVec Ideal ⟨2, ![256, 64]⟩ .f32) (r : Fin 100000) (j : Fin 64) : EReal :=
  ∑ k : Fin 256, (x (ix2 r k) * s (ix2 r (0 : Fin 1))) * w (ix2 k j)

/-- The node features, each row scaled by its factor, times the weights. -/
def scaledProduct (x : FVec Ideal ⟨2, ![100000, 256]⟩ .f32) (s : FVec Ideal ⟨2, ![100000, 1]⟩ .f32)
    (w : FVec Ideal ⟨2, ![256, 64]⟩ .f32) : FVec Ideal ⟨2, ![100000, 64]⟩ .f32 :=
  fun i => scaledRowDot x s w (i 0) (i 1)

theorem scaledProduct_ix2 (x : FVec Ideal ⟨2, ![100000, 256]⟩ .f32) (s : FVec Ideal ⟨2, ![100000, 1]⟩ .f32)
    (w : FVec Ideal ⟨2, ![256, 64]⟩ .f32) (r : Fin 100000) (j : Fin 64) :
    scaledProduct x s w (ix2 r j) = scaledRowDot x s w r j := rfl

/-- Entry (r, j) of the scaled and shifted aggregate: a[r,j] · s[r] + b[j]. -/
def scaledShiftAt (a : FVec Ideal ⟨2, ![100000, 64]⟩ .f32) (s : FVec Ideal ⟨2, ![100000, 1]⟩ .f32)
    (b : FVec Ideal ⟨1, ![64]⟩ .f32) (r : Fin 100000) (j : Fin 64) : EReal :=
  a (ix2 r j) * s (ix2 r (0 : Fin 1)) + b (ix1 j)

/-- The aggregate, each row scaled by its factor, plus the bias along the rows. -/
def scaledShift (a : FVec Ideal ⟨2, ![100000, 64]⟩ .f32) (s : FVec Ideal ⟨2, ![100000, 1]⟩ .f32)
    (b : FVec Ideal ⟨1, ![64]⟩ .f32) : FVec Ideal ⟨2, ![100000, 64]⟩ .f32 :=
  fun i => scaledShiftAt a s b (i 0) (i 1)

theorem scaledShift_ix2 (a : FVec Ideal ⟨2, ![100000, 64]⟩ .f32) (s : FVec Ideal ⟨2, ![100000, 1]⟩ .f32)
    (b : FVec Ideal ⟨1, ![64]⟩ .f32) (r : Fin 100000) (j : Fin 64) :
    scaledShift a s b (ix2 r j) = scaledShiftAt a s b r j := rfl

end Cert.GraphConv

end
-- ==== Proof.RefStages.lean ====
/-
  The two stages of the reference that the kernel computes differently, as the specification's
  functions: the host matrix product of the row-scaled features with the weights is
  `scaledProduct`, and the final multiply-and-add with the broadcast row factors and bias is
  `scaledShift`. Over the extended reals the host product at (r, j) is the plain sum over k of
  its operands' entries (r, k) and (k, j); the layout operations read their operand at the entry
  the broadcast names.
-/
import proofs.«129320_j463856468203_2_alg».proof.Proof.Gen.ReferenceIdeal.Read
import proofs.«129320_j463856468203_2_alg».proof.Proof.Spec
import Idealize.ShloMosaic.Lib.ValueIdx
import Idealize.ShloMosaic.Lib.Pipeline.Value
import Idealize.ShloMosaic.PureOps.Ideal.Laws

noncomputable section

namespace Cert.GraphConv.Ref

open Idealize.ShloMosaic Idealize.ShloMosaic.ValueIdx Cert.ReferenceIdeal Cert.ReferenceIdeal.Gen Cert.ReferenceIdeal.Read Cert.GraphConv

/-- A column of 100000 row factors broadcast across 256 columns reads, at (r, k), the factor of row r. -/
theorem col256_apply (s : FVec Ideal S100000x1 .f32) (r : Fin 100000) (k : Fin 256) :
    broadcastInDim S100000x256 ![0, 1] bcast_S100000x1_S100000x256_0_1 s (ix2 r k) = s (ix2 r (0 : Fin 1)) :=
  broadcastInDim_apply _ bcast_S100000x1_S100000x256_0_1 s (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The same column broadcast across 64 columns. -/
theorem col64_apply (s : FVec Ideal S100000x1 .f32) (r : Fin 100000) (j : Fin 64) :
    broadcastInDim S100000x64 ![0, 1] bcast_S100000x1_S100000x64_0_1 s (ix2 r j) = s (ix2 r (0 : Fin 1)) :=
  broadcastInDim_apply _ bcast_S100000x1_S100000x64_0_1 s (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- The bias vector laid out as one row and broadcast down 100000 rows reads, at (r, j), the bias at j. -/
theorem bias_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  refine (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The host product of the row-scaled features with the weights is `scaledProduct`. -/
theorem product_eq (x : FVec Ideal S100000x256 .f32) (s : FVec Ideal S100000x1 .f32) (w : FVec Ideal S256x64 .f32) :
    Host.dotGeneral (F := Ideal) dot_S100000x256_S256x64_S100000x64_1_0_0_1_n_n none
        (mulf x (broadcastInDim S100000x256 ![0, 1] bcast_S100000x1_S100000x256_0_1 s)) w
      = scaledProduct x s w := by
  funext i
  obtain ⟨r, j, rfl⟩ : ∃ (r : Fin 100000) (j : Fin 64), i = ix2 r j := ⟨i 0, i 1, eq_ix2 i⟩
  rw [scaledProduct_ix2]
  unfold scaledRowDot
  simp only [Host.dotGeneral]
  rw [Ideal.dotGeneral_apply, ← Equiv.sum_comp (ValueIdx.contrEquiv1 dot_S100000x256_S256x64_S100000x64_1_0_0_1_n_n 256 rfl rfl).symm]
  refine Finset.sum_congr rfl fun k _ => ?_
  have hk := ValueIdx.contrEquiv1_symm_val dot_S100000x256_S256x64_S100000x64_1_0_0_1_n_n 256 rfl rfl k
  have el : dot_S100000x256_S256x64_S100000x64_1_0_0_1_n_n.lhsIdx (ix2 r j)
      ((ValueIdx.contrEquiv1 dot_S100000x256_S256x64_S100000x64_1_0_0_1_n_n 256 rfl rfl).symm k) = ix2 r k :=
    funext fun a => Fin.ext (by
      match a with
      | ⟨0, _⟩ => exact lhs_main_v19_0 _ _
      | ⟨1, _⟩ => exact (lhs_main_v19_1 _ _).trans hk)
  have er : dot_S100000x256_S256x64_S100000x64_1_0_0_1_n_n.rhsIdx (ix2 r j)
      ((ValueIdx.contrEquiv1 dot_S100000x256_S256x64_S100000x64_1_0_0_1_n_n 256 rfl rfl).symm k) = ix2 k j :=
    funext fun a => Fin.ext (by
      match a with
      | ⟨0, _⟩ => exact (rhs_main_v19_0 _ _).trans hk
      | ⟨1, _⟩ => exact rhs_main_v19_1 _ _)
  rw [el, er]
  show (x (ix2 r k) * broadcastInDim S100000x256 ![0, 1] bcast_S100000x1_S100000x256_0_1 s (ix2 r k)) * w (ix2 k j) = _
  rw [col256_apply]

/-- The reference's last three stages — times the broadcast row factors, plus the broadcast bias — are `scaledShift`. -/
theorem shift_eq (a : FVec Ideal S100000x64 .f32) (s : FVec Ideal S100000x1 .f32) (b : FVec Ideal S64 .f32) :
    addf (mulf a (broadcastInDim S100000x64 ![0, 1] bcast_S100000x1_S100000x64_0_1 s))
        (broadcastInDim S100000x64 ![0, 1] bcast_S1x64_S100000x64_0_1 (broadcastInDim S1x64 ![1] bcast_S64_S1x64_1 b))
      = scaledShift a s b := by
  funext i
  obtain ⟨r, j, rfl⟩ : ∃ (r : Fin 100000) (j : Fin 64), i = ix2 r j := ⟨i 0, i 1, eq_ix2 i⟩
  rw [scaledShift_ix2]
  unfold scaledShiftAt
  show a (ix2 r j) * broadcastInDim S100000x64 ![0, 1] bcast_S100000x1_S100000x64_0_1 s (ix2 r j)
      + broadcastInDim S100000x64 ![0, 1] bcast_S1x64_S100000x64_0_1 (broadcastInDim S1x64 ![1] bcast_S64_S1x64_1 b) (ix2 r j) = _
  rw [col64_apply, bias_apply]

end Cert.GraphConv.Ref

end
-- ==== Proof.Layer.lean ====
/-
  The whole layer as one function of the five arguments, and the reference's result as that function.

  Both programs append a self-loop to every node, count each node's out- and in-degree, take the
  inverse square root of the degree (at least 1) as the node's factor, gather one 64-entry row per
  edge from a per-node table at the edge's source, and sum the gathered rows at the edge's
  destination. Those steps are the same host operations in both programs, so they are kept as the
  reference's own stages and never opened: `aggregate h src dst` is the gather-and-sum applied to
  ANY per-node table h. The layer is then
      scaledShift (aggregate (scaledProduct x (source factors) w) src dst) (destination factors) b,
  and the reference computes exactly this: its host matrix product is `scaledProduct` and its last
  three stages are `scaledShift`.
-/
import proofs.«129320_j463856468203_2_alg».proof.Proof.Gen.ReferenceIdeal.Read
import proofs.«129320_j463856468203_2_alg».proof.Proof.Spec
import proofs.«129320_j463856468203_2_alg».proof.Proof.RefStages

noncomputable section

namespace Cert.GraphConv

open Idealize.ShloMosaic Cert.ReferenceIdeal Cert.ReferenceIdeal.Gen Cert.ReferenceIdeal.Read

/-- One row per edge gathered from the per-node table `h` at the edge's source, summed at the edge's
    destination, over the given edges with one self-loop per node appended. -/
def aggregate (h : (⟨S100000x64, .f32⟩ : BufTy).Contents (Elt Ideal)) (src dst : (⟨S3200000, .i32⟩ : BufTy).Contents (Elt Ideal)) :
    (⟨S100000x64, .f32⟩ : BufTy).Contents (Elt Ideal) :=
  Host.scatterAdd (F := Ideal) (φ := .f32) scatter_S100000x64_S3300000x1_S3300000x64_1_0_0_1 (val_main_v27 (F := Ideal)) (val_main_v28 (F := Ideal) dst)
    (Host.gather gather_S100000x64_S3300000x1_S3300000x64_1_0_n_n_0_1_164 h (val_main_v25 (F := Ideal) src))

/-- The layer: features scaled by the source factors times the weights, aggregated along the edges,
    scaled by the destination factors, plus the bias. -/
def layer (x : (⟨S100000x256, .f32⟩ : BufTy).Contents (Elt Ideal)) (src dst : (⟨S3200000, .i32⟩ : BufTy).Contents (Elt Ideal))
    (w : (⟨S256x64, .f32⟩ : BufTy).Contents (Elt Ideal)) (b : (⟨S64, .f32⟩ : BufTy).Contents (Elt Ideal)) :
    (⟨S100000x64, .f32⟩ : BufTy).Contents (Elt Ideal) :=
  scaledShift (aggregate (scaledProduct x (val_main_v16 (F := Ideal) src) w) src dst) (val_main_v30 (F := Ideal) dst) b

/-- The reference's result is the layer. -/
theorem reference_eq (x : (⟨S100000x256, .f32⟩ : BufTy).Contents (Elt Ideal)) (src dst : (⟨S3200000, .i32⟩ : BufTy).Contents (Elt Ideal))
    (w : (⟨S256x64, .f32⟩ : BufTy).Contents (Elt Ideal)) (b : (⟨S64, .f32⟩ : BufTy).Contents (Elt Ideal)) :
    val_main_v35 (F := Ideal) x src dst w b = layer x src dst w b := by
  unfold val_main_v35 val_main_v34 val_main_v33 val_main_v32 val_main_v31 val_main_v29 val_main_v26 val_main_v19 val_main_v18 val_main_v17
  rw [Ref.shift_eq, Ref.product_eq]
  rfl

end Cert.GraphConv

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.BlockProduct.lean ====
/-
  What the first kernel body stores, read at an entry: from a block of 10000 feature rows x, the
  block's column of row factors s and the whole weight matrix w it stores the matrix product of
  (x with every row scaled by its factor) with w, accumulated from zero. Rounding the two factors
  to a narrower float format changes nothing over the extended reals, and adding into a zero
  accumulator is the sum itself, so entry (p, q) is the sum over k of (x[p,k] · s[p]) · w[k,q].
-/
import proofs.«129320_j463856468203_2_alg».proof.Proof.Gen.KernelIdeal.Skeleton
import proofs.«129320_j463856468203_2_alg».proof.Proof.LibColumn
import Idealize.ShloMosaic.Lib.ValueIdx
import Idealize.ShloMosaic.Lib.Pipeline.Value
import Idealize.ShloMosaic.PureOps.Ideal.Laws

noncomputable section

namespace Cert.GraphConv.Block

open Idealize.ShloMosaic Idealize.ShloMosaic.ValueIdx Cert.KernelIdeal Cert.KernelIdeal.Gen

/-- The product's left operand is read at (row of the output entry, contracted index) -/
theorem lhs_row (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide),
    dif_pos (show (0 : Fin S10000x256.rank) ∈ dot_S10000x256_S256x64_S10000x64_1_0_0_1_n_n.lhsNonContracting by decide)]
  rfl
theorem lhs_contr (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
/-- and its right operand at (contracted index, column of the output entry). -/
theorem rhs_contr (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
theorem rhs_col (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide),
    dif_pos (show (1 : Fin S256x64.rank) ∈ dot_S10000x256_S256x64_S10000x64_1_0_0_1_n_n.rhsNonContracting by decide)]
  rfl

/-- Entry (p, q) of what the first body stores: the sum over k of (x[p,k] · s[p]) · w[k,q]. -/
theorem product_apply (x : Vec Ideal S10000x256 .f32) (s : Vec Ideal S10000x1 .f32) (w : Vec Ideal S256x64 .f32)
    (p : Fin 10000) (q : Fin 64) :
    k0_pay1 (F := Ideal) x s w (ix2 p q) = ∑ k : Fin 256, (x (ix2 p k) * s (ix2 p (0 : Fin 1))) * w (ix2 k q) := by
  unfold k0_pay1
  refine (Ideal.matmul_constant_zero_apply dot_S10000x256_S256x64_S10000x64_1_0_0_1_n_n none _ _ (ix2 p q)).trans ?_
  rw [← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  have el : dot_S10000x256_S256x64_S10000x64_1_0_0_1_n_n.lhsIdx (ix2 p q)
      ((ValueIdx.contrEquiv1 dot_S10000x256_S256x64_S10000x64_1_0_0_1_n_n 256 rfl rfl).symm k) = ix2 p k :=
    funext fun a => Fin.ext (by
      match a with
      | ⟨0, _⟩ => exact lhs_row _ _
      | ⟨1, _⟩ => exact (lhs_contr _ _).trans hk)
  have er : dot_S10000x256_S256x64_S10000x64_1_0_0_1_n_n.rhsIdx (ix2 p q)
      ((ValueIdx.contrEquiv1 dot_S10000x256_S256x64_S10000x64_1_0_0_1_n_n 256 rfl rfl).symm k) = ix2 k q :=
    funext fun a => Fin.ext (by
      match a with
      | ⟨0, _⟩ => exact (rhs_contr _ _).trans hk
      | ⟨1, _⟩ => exact rhs_col _ _)
  rw [el, er]
  show (x (ix2 p k) * broadcastTo S10000x256 (shapeCast S10000x1 s shapeCasts_S10000x1_S10000x1) broadcasts_S10000x1_S10000x256 (ix2 p k))
      * w (ix2 k q) = _
  rw [shapeCast_self, Cert.Splat.Column.broadcastTo_a1_ab_apply]

end Cert.GraphConv.Block

end
-- ==== Proof.ProductArray.lean ====
/-
  The first region as a whole: whatever the buffers hold when it is entered, after its ten grid
  points the product array holds `scaledProduct` of the feature array, the column of row factors
  and the weight matrix as the region found them.

  Point t works on rows 10000·t … 10000·t + 9999: its feature block and its factor block are
  those rows of their arrays, its weight block is the whole matrix, and the block it writes back
  is those rows of the output. So what point t writes is rows 10000·t … of `scaledProduct`, and
  the ten row blocks cover the array: row r lies in the block of point r / 10000.
-/
import proofs.«129320_j463856468203_2_alg».proof.Proof.Gen.KernelIdeal.Frame
import proofs.«129320_j463856468203_2_alg».proof.Proof.Spec
import proofs.«129320_j463856468203_2_alg».proof.Proof.BlockProduct
import Idealize.ShloMosaic.Lib.Pipeline.Value
import Idealize.ShloMosaic.Lib.ValueIdx

set_option maxRecDepth 16384

noncomputable section

namespace Cert.GraphConv.ProductArray

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem zeros2 : (![0, 0] : Fin 2 → Nat) = fun _ => 0 := funext fun a => by fin_cases a <;> rfl

/-- The block indices of the four windows at point t: the feature, factor and output windows are at
    row block t, the weight window stays at its one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 :=
  (show t.val < grid0.N from t.isLt).trans_eq N_0

/-- Row p of point t's blocks is row 10000·t + p of the arrays. -/
def rowOf (t : Fin cfg0.N) (p : Fin 10000) : Fin 100000 :=
  ⟨10000 * t.val + p.val, by have := point_lt t; have := p.isLt; omega⟩

/-- Point t's feature block at (p, k) is the feature array at (10000·t + p, k). -/
theorem feature_block (c : Dev nD) (t : Fin cfg0.N) (p : Fin 10000) (k : Fin 256) :
    (iblk0 V c 0 t : Vec Ideal S10000x256 .f32) (ix2 p k)
      = (V c main_arg0 : S100000x256.Idx → Elt Ideal .f32) (ix2 (rowOf t p) k) := by
  obtain ⟨e0, e1, -⟩ := block_index t
  unfold iblk0
  rw [View.read_apply]
  show V c main_arg0 _ = V c main_arg0 _
  refine congrArg _ ?_
  funext a
  apply Fin.ext
  match a with
  | ⟨0, _⟩ => show win0_0.index t (0 : Fin 2) * 10000 + 1 * p.val = 10000 * t.val + p.val; rw [e0]; omega
  | ⟨1, _⟩ => show win0_0.index t (1 : Fin 2) * 256 + 1 * k.val = k.val; rw [e1]; omega

/-- Point t's factor block at (p, 0) is the factor column at (10000·t + p, 0). -/
theorem factor_block (c : Dev nD) (t : Fin cfg0.N) (p : Fin 10000) (u : Fin 1) :
    (iblk0 V c 1 t : Vec Ideal S10000x1 .f32) (ix2 p u)
      = (V c main_v16 : S100000x1.Idx → Elt Ideal .f32) (ix2 (rowOf t p) u) := by
  obtain ⟨-, -, e0, e1, -⟩ := block_index t
  unfold iblk0
  rw [View.read_apply]
  show V c main_v16 _ = V c main_v16 _
  refine congrArg _ ?_
  funext a
  apply Fin.ext
  match a with
  | ⟨0, _⟩ => show win0_1.index t (0 : Fin 2) * 10000 + 1 * p.val = 10000 * t.val + p.val; rw [e0]; omega
  | ⟨1, _⟩ => show win0_1.index t (1 : Fin 2) * 1 + 1 * u.val = u.val; rw [e1]; omega

/-- Every point's weight block is the weight matrix. -/
theorem weight_block (c : Dev nD) (t : Fin cfg0.N) (k : Fin 256) (q : Fin 64) :
    (iblk0 V c 2 t : Vec Ideal S256x64 .f32) (ix2 k q)
      = (V c main_arg3 : S256x64.Idx → Elt Ideal .f32) (ix2 k q) := by
  obtain ⟨-, -, -, -, e0, e1, -⟩ := block_index t
  unfold iblk0
  rw [View.read_apply]
  show V c main_arg3 _ = V c main_arg3 _
  refine congrArg _ ?_
  funext a
  apply Fin.ext
  match a with
  | ⟨0, _⟩ => show win0_2.index t (0 : Fin 2) * 256 + 1 * k.val = k.val; rw [e0]; omega
  | ⟨1, _⟩ => show win0_2.index t (1 : Fin 2) * 64 + 1 * q.val = q.val; rw [e1]; omega

/-- Entry (p, q) of point t's output block sits at (10000·t + p, q) of the product array. -/
theorem output_entry (t : Fin cfg0.N) (p : Fin 10000) (q : Fin 64) :
    (((cfg0.win 3).blk t).view.emb (ix2 p q) : S100000x64.Idx) = ix2 (rowOf t p) q := by
  obtain ⟨-, -, -, -, -, -, e0, e1⟩ := block_index t
  funext a
  apply Fin.ext
  match a with
  | ⟨0, _⟩ => show win0_3.index t (0 : Fin 2) * 10000 + 1 * p.val = 10000 * t.val + p.val; rw [e0]; omega
  | ⟨1, _⟩ => show win0_3.index t (1 : Fin 2) * 64 + 1 * q.val = q.val; rw [e1]; omega

/-- What point t writes back is rows 10000·t … 10000·t + 9999 of `scaledProduct` of the arrays as entered. -/
theorem flushed_eq (c : Dev nD) (t : Fin cfg0.N) :
    (dat0 V c).flushed 3 t
      = ((cfg0.win 3).blk t).view.read (Elt Ideal) (scaledProduct (V c main_arg0) (V c main_v16) (V c main_arg3)) := by
  show (cfg0.win 3).cut (grid0.coords t) ((dat0 V c).after 3 t) = _
  rw [after0_3]
  unfold out0_3
  rw [View.canon_unit_zero zeros2]
  simp only [View.ld_unit_zero (S := S10000x256) zeros2, View.ld_unit_zero (S := S10000x1) zeros2,
    View.ld_unit_zero (S := S256x64) zeros2]
  funext y
  obtain ⟨p, q, rfl⟩ : ∃ (p : Fin 10000) (q : Fin 64), y = ix2 p q := ⟨y 0, y 1, eq_ix2 y⟩
  refine (Block.product_apply (iblk0 V c 0 t) (iblk0 V c 1 t) (iblk0 V c 2 t) p q).trans ?_
  rw [View.read_apply, output_entry, scaledProduct_ix2]
  unfold scaledRowDot
  refine Finset.sum_congr rfl fun k _ => ?_
  rw [feature_block V c t p k, factor_block V c t p 0, weight_block V c t k q]

/-- A row of the product array lies in a point's block iff it is one of that point's 10000 rows. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v17).slice (win0_3.rect t)).set ↔ _
  rw [View.set_slice_whole, Rect.mem_set_unit]
  exact Iff.rfl

/-- The ten row blocks cover the product array: row r is written by point r / 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < cfg0.N := by rw [show cfg0.N = 10 from N_0]; omega
  obtain ⟨-, -, -, -, -, -, e0, e1⟩ := block_index ⟨(i 0).val / 10000, ht⟩
  refine ⟨⟨(i 0).val / 10000, ht⟩, flush0_3 _, ?_⟩
  rw [mem_block]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e1]; omega

/-- After the first region the product array is `scaledProduct` of the arrays the region was entered with. -/
theorem array_eq (c : Dev nD) :
    (dat0 V c).arrAt 3 cfg0.N = scaledProduct (V c main_arg0) (V c main_v16) (V c main_arg3) :=
  (dat0 V c).arrAt_eq_of_cover 3 _ (fun t _ => flushed_eq V c t) cover

end Cert.GraphConv.ProductArray

end
-- ==== Proof.BlockShift.lean ====
/-
  What the second kernel body stores, read at an entry: from a block of 10000 aggregate rows a, the
  block's column of row factors s and the bias vector b it stores a · (s broadcast along each row)
  + (b broadcast down the rows); entry (p, q) is a[p,q] · s[p] + b[q].
-/
import proofs.«129320_j463856468203_2_alg».proof.Proof.Gen.KernelIdeal.Skeleton
import proofs.«129320_j463856468203_2_alg».proof.Proof.LibColumn
import Idealize.ShloMosaic.Lib.ValueIdx
import Idealize.ShloMosaic.Lib.ValueLayout
import Idealize.ShloMosaic.Lib.Pipeline.Value

noncomputable section

namespace Cert.GraphConv.Block

open Idealize.ShloMosaic Idealize.ShloMosaic.ValueIdx Cert.KernelIdeal Cert.KernelIdeal.Gen

/-- Entry (p, q) of what the second body stores: a[p,q] · s[p] + b[q]. -/
theorem shift_apply (b : Vec Ideal S64 .f32) (a : Vec Ideal S10000x64 .f32) (s : Vec Ideal S10000x1 .f32)
    (p : Fin 10000) (q : Fin 64) :
    k1_pay1 (F := Ideal) b a s (ix2 p q) = a (ix2 p q) * s (ix2 p (0 : Fin 1)) + b (ix1 q) := by
  unfold k1_pay1
  show shapeCast S10000x64 a shapeCasts_S10000x64_S10000x64 (ix2 p q)
        * broadcastTo S10000x64 (shapeCast S10000x1 s shapeCasts_S10000x1_S10000x1) broadcasts_S10000x1_S10000x64 (ix2 p q)
      + broadcastTo S10000x64 (shapeCast S1x64 b shapeCasts_S64_S1x64) broadcasts_S1x64_S10000x64 (ix2 p q) = _
  rw [shapeCast_self, shapeCast_self, Cert.Splat.Column.broadcastTo_a1_ab_apply, broadcastTo_1b_ab_apply,
    shapeCast_a_1a_apply]

end Cert.GraphConv.Block

end
-- ==== Proof.ShiftArray.lean ====
/-
  The second region as a whole: whatever the buffers hold when it is entered, after its ten grid
  points the result array holds `scaledShift` of the aggregate array, the column of row factors
  and the bias vector as the region found them.

  Point t works on rows 10000·t … 10000·t + 9999 of the aggregate, of the factor column and of the
  result; the bias block is the whole vector at every point. The ten row blocks cover the result.
-/
import proofs.«129320_j463856468203_2_alg».proof.Proof.Gen.KernelIdeal.Frame
import proofs.«129320_j463856468203_2_alg».proof.Proof.Spec
import proofs.«129320_j463856468203_2_alg».proof.Proof.BlockShift
import Idealize.ShloMosaic.Lib.Pipeline.Value
import Idealize.ShloMosaic.Lib.ValueIdx

set_option maxRecDepth 16384

noncomputable section

namespace Cert.GraphConv.ShiftArray

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block indices of the four windows at point t: the aggregate, factor and result windows are
    at row block t, the bias window stays at its one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem point_lt (t : Fin cfg1.N) : t.val < 10 :=
  (show t.val < grid1.N from t.isLt).trans_eq N_1

/-- Row p of point t's blocks is row 10000·t + p of the arrays. -/
def rowOf (t : Fin cfg1.N) (p : Fin 10000) : Fin 100000 :=
  ⟨10000 * t.val + p.val, by have := point_lt t; have := p.isLt; omega⟩

/-- Point t's aggregate block at (p, q) is the aggregate array at (10000·t + p, q). -/
theorem aggregate_block (c : Dev nD) (t : Fin cfg1.N) (p : Fin 10000) (q : Fin 64) :
    (iblk1 V c 0 t : Vec Ideal S10000x64 .f32) (ix2 p q)
      = (V c main_v27 : S100000x64.Idx → Elt Ideal .f32) (ix2 (rowOf t p) q) := by
  obtain ⟨e0, e1, -⟩ := block_index t
  unfold iblk1
  rw [View.read_apply]
  show V c main_v27 _ = V c main_v27 _
  refine congrArg _ ?_
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * q.val = q.val; rw [e1]; omega

/-- Point t's factor block at (p, 0) is the factor column at (10000·t + p, 0). -/
theorem factor_block (c : Dev nD) (t : Fin cfg1.N) (p : Fin 10000) (u : Fin 1) :
    (iblk1 V c 1 t : Vec Ideal S10000x1 .f32) (ix2 p u)
      = (V c main_v28 : S100000x1.Idx → Elt Ideal .f32) (ix2 (rowOf t p) u) := by
  obtain ⟨-, -, e0, e1, -⟩ := block_index t
  unfold iblk1
  rw [View.read_apply]
  show V c main_v28 _ = V c main_v28 _
  refine congrArg _ ?_
  funext a
  apply Fin.ext
  match a with
  | ⟨0, _⟩ => show win1_1.index t (0 : Fin 2) * 10000 + 1 * p.val = 10000 * t.val + p.val; rw [e0]; omega
  | ⟨1, _⟩ => show win1_1.index t (1 : Fin 2) * 1 + 1 * u.val = u.val; rw [e1]; omega

/-- Every point's bias block is the bias vector. -/
theorem bias_block (c : Dev nD) (t : Fin cfg1.N) (q : Fin 64) :
    (iblk1 V c 2 t : Vec Ideal S64 .f32) (ix1 q) = (V c main_arg4 : S64.Idx → Elt Ideal .f32) (ix1 q) := by
  obtain ⟨-, -, -, -, e0, -⟩ := block_index t
  unfold iblk1
  rw [View.read_apply]
  show V c main_arg4 _ = V c main_arg4 _
  refine congrArg _ ?_
  funext a
  apply Fin.ext
  match a with
  | ⟨0, _⟩ => show win1_2.index t (0 : Fin 1) * 64 + 1 * q.val = q.val; rw [e0]; omega

/-- Entry (p, q) of point t's result block sits at (10000·t + p, q) of the result array. -/
theorem output_entry (t : Fin cfg1.N) (p : Fin 10000) (q : Fin 64) :
    (((cfg1.win 3).blk t).view.emb (ix2 p q) : S100000x64.Idx) = ix2 (rowOf t p) q := by
  obtain ⟨-, -, -, -, -, e0, e1⟩ := block_index t
  funext a
  apply Fin.ext
  match a with
  | ⟨0, _⟩ => show win1_3.index t (0 : Fin 2) * 10000 + 1 * p.val = 10000 * t.val + p.val; rw [e0]; omega
  | ⟨1, _⟩ => show win1_3.index t (1 : Fin 2) * 64 + 1 * q.val = q.val; rw [e1]; omega

/-- What point t writes back is rows 10000·t … 10000·t + 9999 of `scaledShift` of the arrays as entered. -/
theorem flushed_eq (c : Dev nD) (t : Fin cfg1.N) :
    (dat1 V c).flushed 3 t
      = ((cfg1.win 3).blk t).view.read (Elt Ideal) (scaledShift (V c main_v27) (V c main_v28) (V c main_arg4)) := by
  show (cfg1.win 3).cut (grid1.coords t) ((dat1 V c).after 3 t) = _
  rw [after1_3]
  unfold out1_3
  rw [View.canon_unit_zero zeros2]
  simp only [View.ld_unit_zero (S := S10000x64) zeros2, View.ld_unit_zero (S := S10000x1) zeros2,
    View.ld_unit_zero (S := S64) zeros1]
  funext y
  obtain ⟨p, q, rfl⟩ : ∃ (p : Fin 10000) (q : Fin 64), y = ix2 p q := ⟨y 0, y 1, eq_ix2 y⟩
  refine (Block.shift_apply (iblk1 V c 2 t) (iblk1 V c 0 t) (iblk1 V c 1 t) p q).trans ?_
  rw [View.read_apply, output_entry, scaledShift_ix2]
  unfold scaledShiftAt
  rw [aggregate_block V c t p q, factor_block V c t p 0, bias_block V c t q]
  rfl

/-- A row of the result array lies in a point's block iff it is one of that point's 10000 rows. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v29).slice (win1_3.rect t)).set ↔ _
  rw [View.set_slice_whole, Rect.mem_set_unit]
  exact Iff.rfl

/-- The ten row blocks cover the result array: row r is written by point r / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < cfg1.N := by rw [show cfg1.N = 10 from N_1]; omega
  obtain ⟨-, -, -, -, -, e0, e1⟩ := block_index ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e1]; omega

/-- After the second region the result array is `scaledShift` of the arrays the region was entered with. -/
theorem array_eq (c : Dev nD) :
    (dat1 V c).arrAt 3 cfg1.N = scaledShift (V c main_v27) (V c main_v28) (V c main_arg4) :=
  (dat1 V c).arrAt_eq_of_cover 3 _ (fun t _ => flushed_eq V c t) cover

end Cert.GraphConv.ShiftArray

end
-- ==== Proof.KernelRun.lean ====
/-
  The kernel program's run with its result named: from any memory with zero counters every weakly
  fair execution of @main terminates without a fault, the result buffer ends at the contents the
  last segment boundary gives it, and the five argument arrays end as launched.

  @main is four segments: the host operations that build the edge lists and the degree factors,
  the first region, the host gather and scatter-add, the second region. Each segment's exit
  contents are the next one's entry contents, and at the end every unscoped buffer is read back at
  the last boundary's contents — here the result buffer as well as the arguments.
-/
import proofs.«129320_j463856468203_2_alg».proof.Proof.Gen.KernelIdeal.Frame

set_option maxRecDepth 16384

noncomputable section

namespace Cert.GraphConv.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.GraphConv.KernelRun

end
-- ==== Proof.KernelValue.lean ====
/-
  What the kernel program leaves in its result buffer: the layer of the five launch arguments.

  Read backwards through the four segments. The result is the second region's output array, which
  is `scaledShift` of three arrays as that region found them: the aggregate, the column of
  destination factors, and the bias. The aggregate and that column were written by the second host
  stretch from the first region's product array, the two edge lists with self-loops and the
  destination factors — all as the first region left them, and the first region changes only its
  product array. That array is `scaledProduct` of the features, the column of source factors and
  the weights as the first region found them, and the first host stretch wrote the column, the
  edge lists and the factors from the launch arguments. Host stretches never write an argument.
-/
import proofs.«129320_j463856468203_2_alg».proof.Proof.Gen.KernelIdeal.Frame
import proofs.«129320_j463856468203_2_alg».proof.Proof.ProductArray
import proofs.«129320_j463856468203_2_alg».proof.Proof.ShiftArray
import proofs.«129320_j463856468203_2_alg».proof.Proof.Layer
import proofs.«129320_j463856468203_2_alg».proof.Proof.KernelRun
import Idealize.ShloMosaic.Lib.StableHlo.Run

set_option maxRecDepth 16384

noncomputable section

namespace Cert.GraphConv.Kernel

open Idealize.ShloMosaic Idealize.ShloMosaic.TcCoe Idealize.SL.Sem Idealize.ShloMosaic.StableHlo
open Cert.KernelIdeal Cert.KernelIdeal.Gen
open Cert.ReferenceIdeal.Read (val_main_v1 val_main_v2 val_main_v15 val_main_v16 val_main_v30)

variable (m : (ℓ : Loc nD τ sig) → Buf (Elt Ideal) ℓ) (ρ : Dev nD → PrngReg)

/-! ## After the first host stretch -/

theorem features_at_entry (c : Dev nD) : V1 m ρ c main_arg0 = m ((c : Thread nD τ).loc main_arg0) := by
  show StableHlo.after hostOps0 (W0 m ρ c) (Proc.devRef .tc main_arg0) = _
  dsimp only [hostOps0]; after_results

theorem weights_at_entry (c : Dev nD) : V1 m ρ c main_arg3 = m ((c : Thread nD τ).loc main_arg3) := by
  show StableHlo.after hostOps0 (W0 m ρ c) (Proc.devRef .tc main_arg3) = _
  dsimp only [hostOps0]; after_results

theorem bias_after_stretch0 (c : Dev nD) : W1 m ρ c (Proc.devRef .tc main_arg4) = m ((c : Thread nD τ).loc main_arg4) := by
  show StableHlo.after hostOps0 (W0 m ρ c) (Proc.devRef .tc main_arg4) = _
  dsimp only [hostOps0]; after_results

/-- The column of source factors. -/
theorem source_column (c : Dev nD) :
    V1 m ρ c main_v16 = val_main_v16 (F := Ideal) (m ((c : Thread nD τ).loc main_arg1)) := by
  show StableHlo.after hostOps0 (W0 m ρ c) (Proc.devRef .tc main_v16) = _
  dsimp only [hostOps0]; after_results; rfl

/-- The source list with self-loops. -/
theorem sources_after_stretch0 (c : Dev nD) :
    W1 m ρ c (Proc.devRef .tc main_v1) = val_main_v1 (F := Ideal) (m ((c : Thread nD τ).loc main_arg1)) := by
  show StableHlo.after hostOps0 (W0 m ρ c) (Proc.devRef .tc main_v1) = _
  dsimp only [hostOps0]; after_results; rfl

/-- The destination list with self-loops. -/
theorem dests_after_stretch0 (c : Dev nD) :
    W1 m ρ c (Proc.devRef .tc main_v2) = val_main_v2 (F := Ideal) (m ((c : Thread nD τ).loc main_arg2)) := by
  show StableHlo.after hostOps0 (W0 m ρ c) (Proc.devRef .tc main_v2) = _
  dsimp only [hostOps0]; after_results; rfl

/-- The destination factors. -/
theorem dest_factors_after_stretch0 (c : Dev nD) :
    W1 m ρ c (Proc.devRef .tc main_v15) = val_main_v15 (F := Ideal) (m ((c : Thread nD τ).loc main_arg2)) := by
  show StableHlo.after hostOps0 (W0 m ρ c) (Proc.devRef .tc main_v15) = _
  dsimp only [hostOps0]; after_results; rfl

/-! ## After the first region: only the product array has changed -/

/-- The product array after the first region. -/
theorem product_after_region0 (c : Dev nD) :
    W2 m ρ c (Proc.devRef .tc main_v17)
      = Cert.GraphConv.scaledProduct (m ((c : Thread nD τ).loc main_arg0))
          (val_main_v16 (F := Ideal) (m ((c : Thread nD τ).loc main_arg1))) (m ((c : Thread nD τ).loc main_arg3)) := by
  refine (W2_arr m ρ c 3).trans ((Cert.GraphConv.ProductArray.array_eq (V1 m ρ) c).trans ?_)
  rw [features_at_entry, weights_at_entry, source_column]

theorem sources_after_region0 (c : Dev nD) :
    W2 m ρ c (Proc.devRef .tc main_v1) = val_main_v1 (F := Ideal) (m ((c : Thread nD τ).loc main_arg1)) :=
  (W2_of_ne m ρ c main_v1 (by decide)).trans (sources_after_stretch0 m ρ c)

theorem dests_after_region0 (c : Dev nD) :
    W2 m ρ c (Proc.devRef .tc main_v2) = val_main_v2 (F := Ideal) (m ((c : Thread nD τ).loc main_arg2)) :=
  (W2_of_ne m ρ c main_v2 (by decide)).trans (dests_after_stretch0 m ρ c)

theorem dest_factors_after_region0 (c : Dev nD) :
    W2 m ρ c (Proc.devRef .tc main_v15) = val_main_v15 (F := Ideal) (m ((c : Thread nD τ).loc main_arg2)) :=
  (W2_of_ne m ρ c main_v15 (by decide)).trans (dest_factors_after_stretch0 m ρ c)

theorem bias_after_region0 (c : Dev nD) : W2 m ρ c (Proc.devRef .tc main_arg4) = m ((c : Thread nD τ).loc main_arg4) :=
  (W2_of_ne m ρ c main_arg4 (by decide)).trans (bias_after_stretch0 m ρ c)

/-! ## After the second host stretch -/

/-- The aggregate: the gather-and-sum of the product array along the edges. -/
theorem aggregate_at_entry (c : Dev nD) :
    V3 m ρ c main_v27
      = Cert.GraphConv.aggregate (W2 m ρ c (Proc.devRef .tc main_v17))
          (m ((c : Thread nD τ).loc main_arg1)) (m ((c : Thread nD τ).loc main_arg2)) := by
  show StableHlo.after hostOps1 (W2 m ρ c) (Proc.devRef .tc main_v27) = _
  dsimp only [hostOps1]; after_results
  rw [sources_after_region0, dests_after_region0]
  rfl

/-- The column of destination factors. -/
theorem dest_column_at_entry (c : Dev nD) :
    V3 m ρ c main_v28 = val_main_v30 (F := Ideal) (m ((c : Thread nD τ).loc main_arg2)) := by
  show StableHlo.after hostOps1 (W2 m ρ c) (Proc.devRef .tc main_v28) = _
  dsimp only [hostOps1]; after_results
  rw [dest_factors_after_region0]
  rfl

theorem bias_at_entry (c : Dev nD) : V3 m ρ c main_arg4 = m ((c : Thread nD τ).loc main_arg4) := by
  show StableHlo.after hostOps1 (W2 m ρ c) (Proc.devRef .tc main_arg4) = _
  dsimp only [hostOps1]; after_results
  exact bias_after_region0 m ρ c

/-! ## After the second region -/

/-- The result buffer at the last boundary is the layer of the launch arguments. -/
theorem result_eq (c : Dev nD) :
    W4 m ρ c (Proc.devRef .tc main_v29)
      = Cert.GraphConv.layer (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 3).trans ((Cert.GraphConv.ShiftArray.array_eq (V3 m ρ) c).trans ?_)
  rw [aggregate_at_entry, dest_column_at_entry, bias_at_entry, product_after_region0]
  rfl

/-- The kernel program's run: its result buffer ends at the layer of the launch arguments, which end unchanged. -/
theorem run : θ_run defs (onTc (τ := τ) (main (F := Ideal))) ⟨m, fun _ => 0, ρ⟩ (fun r => ∀ c : Dev nD,
      r.2.mem ((c.tc : Thread nD τ).loc main_v29)
        = Cert.GraphConv.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩)
    (Cert.GraphConv.KernelRun.run_result (F := Ideal) m ρ)

end Cert.GraphConv.Kernel

end
-- ==== Proof.lean ====
/-
  One graph-convolution layer with symmetric degree normalisation, computed two ways, gives the same
  array over the extended reals.

  With a self-loop appended to every node, let s and d be the source and destination lists, and let
  the factor of a node be the inverse square root of its degree (out-degree on the source side,
  in-degree on the destination side, at least 1). The result at (r, j) is

      ( Σ over the edges e with d[e] = r of  H[s[e], j] ) · dstFactor[r] + b[j],
      H[n, j] = Σ_k (x[n, k] · srcFactor[n]) · W[k, j].

  The reference computes H by one host matrix product and the last line by host elementwise
  operations. The kernel program computes H in a first region, ten blocks of 10000 rows, each block
  a matrix product accumulated from zero whose factors are first rounded to a narrower float format
  — the identity over the extended reals —, and the last line in a second region, again ten row
  blocks. The degree counts, the factors, the gather along the edges and the sum at the destinations
  are the same host operations in both programs and are carried as one function, never opened. So
  the two results are one function of the arguments — `layer` — and no step uses finiteness of the
  inputs: the two sides are equal term by term, sum by sum.

  The three frames: the two kernel programs' are the generated ones, the reference's is its
  generated run with the result dropped. The idealization rewrote nothing, so its conjunct is `True`.
-/
import proofs.«129320_j463856468203_2_alg».proof.Defs
import proofs.«129320_j463856468203_2_alg».proof.Proof.Gen.Kernel
import proofs.«129320_j463856468203_2_alg».proof.Proof.Gen.Kernel.Skeleton
import proofs.«129320_j463856468203_2_alg».proof.Proof.Gen.Kernel.Launch
import proofs.«129320_j463856468203_2_alg».proof.Proof.Gen.Kernel.Points
import proofs.«129320_j463856468203_2_alg».proof.Proof.Gen.Kernel.Frame
import proofs.«129320_j463856468203_2_alg».proof.Proof.Gen.KernelIdeal
import proofs.«129320_j463856468203_2_alg».proof.Proof.Gen.KernelIdeal.Skeleton
import proofs.«129320_j463856468203_2_alg».proof.Proof.Gen.KernelIdeal.Launch
import proofs.«129320_j463856468203_2_alg».proof.Proof.Gen.KernelIdeal.Points
import proofs.«129320_j463856468203_2_alg».proof.Proof.Gen.KernelIdeal.Frame
import proofs.«129320_j463856468203_2_alg».proof.Proof.Gen.ReferenceIdeal
import proofs.«129320_j463856468203_2_alg».proof.Proof.Gen.ReferenceIdeal.Run
import proofs.«129320_j463856468203_2_alg».proof.Proof.Gen.ReferenceIdeal.Read
import proofs.«129320_j463856468203_2_alg».proof.Proof.Gen.Pre_finite_inputs
import proofs.«129320_j463856468203_2_alg».proof.Proof.Layer
import proofs.«129320_j463856468203_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the arguments in their result buffer: the kernel program by
    its run read back through its two regions, the reference by its run and the two stage lemmas. -/
theorem algebraic : Cert.algebraic_KernelIdeal_ReferenceIdeal := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact (Cert.ReferenceIdeal.Read.val_main_v35_eq _ _ _ _ _).trans (Cert.GraphConv.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
